-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S128x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S262144x128 .f32) (main_arg1 : FVec F S128x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S262144x128 : Shape := ⟨2, ![262144, 128]⟩
abbrev S128x128 : Shape := ⟨2, ![128, 128]⟩
abbrev S8192x128 : Shape := ⟨2, ![8192, 128]⟩

abbrev nBuf : Space → Nat
  | .hbm => 3
  | .vmem => 5
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S262144x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x128 : Shape := ⟨2, ![128, 128]⟩

abbrev nBuf : Space → Nat
  | .hbm => 4
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128x128, .f32⟩
  | .hbm, ⟨3, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.SignedProduct.lean ====
/-
  The function both programs compute at the ideal values.

  For a matrix `x` with 128 columns and a 128 × 128 weight matrix `w`, the layer's output is

      out[r, c] = ∑ₖ x[r, k] · sgn (w[k, c]),

  where sgn is the sign of an extended real: −1 below zero (−∞ included), +1 above zero (+∞ included) and 0 at zero.
  The number of rows is a parameter: the same formula describes the whole array and one block of consecutive rows,
  because a row of the product depends on the same row of `x` and on all of `w`, and on nothing else.

  No law of the extended reals is needed to join the two programs: each of them forms exactly this sum, in this
  order of factors, so nothing here asks the entries to be finite.
-/
import Idealize.ShloMosaic.PureOps.Ideal.Laws
import Idealize.ShloMosaic.Lib.ValueIdx

noncomputable section

namespace Cert.SignedProduct

open Idealize.ShloMosaic Idealize.ShloMosaic.ValueIdx

/-- One entry of the product of `x` with the matrix of signs of `w`: row `r` of `x` against column `c` of sgn w. -/
def entry {rows : Nat} (x : (⟨2, ![rows, 128]⟩ : Shape).Idx → EReal) (w : (⟨2, ![128, 128]⟩ : Shape).Idx → EReal)
    (r : Fin rows) (c : Fin 128) : EReal :=
  ∑ k : Fin 128, x (ix2 r k) * Ideal.sign (w (ix2 k c))

/-- The whole product, index by index: the entry at an index's row and column. -/
def product {rows : Nat} (x : (⟨2, ![rows, 128]⟩ : Shape).Idx → EReal) (w : (⟨2, ![128, 128]⟩ : Shape).Idx → EReal) :
    (⟨2, ![rows, 128]⟩ : Shape).Idx → EReal :=
  fun i => entry x w (i 0) (i 1)

/-- The product read at an index given by its row and column. -/
theorem product_ix2 {rows : Nat} (x : (⟨2, ![rows, 128]⟩ : Shape).Idx → EReal) (w : (⟨2, ![128, 128]⟩ : Shape).Idx → EReal)
    (r : Fin rows) (c : Fin 128) : product x w (ix2 r c) = entry x w r c := rfl

end Cert.SignedProduct

end
-- ==== Proof.BlockProduct.lean ====
/-
  What the kernel body computes from one block of rows.

  At a grid point the body holds a block of 8192 rows of `x` and the whole weight matrix `w`. It replaces each weight
  by its sign — where |w| > 0 it takes −1 if w < 0 and +1 otherwise, and elsewhere it keeps w itself, which is 0 —,
  narrows both operands to a shorter float format, which changes nothing at the ideal values, and multiplies the block
  by the sign matrix into an accumulator that starts at zero. Read at row p and column q of the block the result is
  the sum over k of x[p, k] · sgn (w[k, q]): the entry of the product with the signs, for this block of rows.
-/
import proofs.«103961_j83288005804169_2_alg».proof.Proof.Gen.KernelIdeal.Skeleton
import proofs.«103961_j83288005804169_2_alg».proof.Proof.SignedProduct
import Idealize.ShloMosaic.PureOps.Ideal.Laws
import Idealize.ShloMosaic.Lib.ValueIdx

noncomputable section

namespace Cert.KernelIdeal.BlockProduct

open Cert.KernelIdeal Cert.KernelIdeal.Gen Idealize.ShloMosaic Idealize.ShloMosaic.ValueIdx

/-- The contraction of the body's matrix product: columns of the block of `x` against rows of the sign matrix. -/
abbrev contraction : DotDims S8192x128 S128x128 S8192x128 := dot_S8192x128_S128x128_S8192x128_1_0_0_1_n_n

/-- The left operand is read at the output's row … -/
theorem left_row (i : S8192x128.Idx) (q : contraction.contr.Idx) : (contraction.lhsIdx i q 0).val = (i 0).val := by
  unfold DotDims.lhsIdx
  rw [dif_neg (show ¬(0 : Fin S8192x128.rank) ∈ contraction.lhsBatch by decide),
    dif_pos (show (0 : Fin S8192x128.rank) ∈ contraction.lhsNonContracting by decide)]
  rfl
/-- … and at the contraction position as its column; -/
theorem left_col (i : S8192x128.Idx) (q : contraction.contr.Idx) :
    (contraction.lhsIdx i q 1).val = (q ⟨0, by decide⟩).val :=
  contraction.lhsIdx_val_of_single rfl i q
/-- the right operand at the contraction position as its row … -/
theorem right_row (i : S8192x128.Idx) (q : contraction.contr.Idx) :
    (contraction.rhsIdx i q 0).val = (q ⟨0, by decide⟩).val :=
  contraction.rhsIdx_val_of_single rfl i q
/-- … and at the output's column. -/
theorem right_col (i : S8192x128.Idx) (q : contraction.contr.Idx) : (contraction.rhsIdx i q 1).val = (i 1).val := by
  unfold DotDims.rhsIdx
  rw [dif_neg (show ¬(1 : Fin S128x128.rank) ∈ contraction.rhsBatch by decide),
    dif_pos (show (1 : Fin S128x128.rank) ∈ contraction.rhsNonContracting by decide)]
  rfl

/-- The body's stored value at row `p` and column `q` of the block is the entry of the product of the block of `x`
    with the signs of `w`: the matrix product into a zero accumulator is the plain sum over the contraction, the
    narrowing of the operands is the identity, and the comparison-and-selection spelling of the sign is sgn. -/
theorem payload_entry (w : Vec Ideal S128x128 .f32) (x : Vec Ideal S8192x128 .f32) (p : Fin 8192) (q : Fin 128) :
    k0_pay1 (F := Ideal) w x (ix2 p q) = Cert.SignedProduct.entry x w p q := by
  unfold k0_pay1 Cert.SignedProduct.entry
  refine (Ideal.matmul_constant_zero_apply contraction none _ _ (ix2 p q)).trans ?_
  rw [← Equiv.sum_comp (contrEquiv1 contraction 128 rfl rfl).symm]
  refine Finset.sum_congr rfl fun k _ => ?_
  have hk := contrEquiv1_symm_val contraction 128 rfl rfl k
  have el : contraction.lhsIdx (ix2 p q) ((contrEquiv1 contraction 128 rfl rfl).symm k) = ix2 p k :=
    funext fun a => Fin.ext (by
      match a with
      | ⟨0, _⟩ => exact left_row _ _
      | ⟨1, _⟩ => exact (left_col _ _).trans hk)
  have er : contraction.rhsIdx (ix2 p q) ((contrEquiv1 contraction 128 rfl rfl).symm k) = ix2 k q :=
    funext fun a => Fin.ext (by
      match a with
      | ⟨0, _⟩ => exact (right_row _ _).trans hk
      | ⟨1, _⟩ => exact right_col _ _)
  rw [el, er]
  exact congrArg (x (ix2 p k) * ·) (Ideal.jnp_sign_eq_sign_f32 (w (ix2 k q)))

end Cert.KernelIdeal.BlockProduct

end
-- ==== Proof.RowBlocks.lean ====
/-
  From blocks of rows to the whole output array.

  The grid has 32 points. Point t fetches rows 8192·t … 8192·t + 8191 of `x` (all 128 columns), always the whole of
  `w`, and writes back the same rows of the output. A row of the product with the signs depends only on that row of
  `x` and on `w`, so what point t writes back is exactly rows 8192·t … 8192·t + 8191 of the product of the WHOLE arrays.
  Row r of the output lies in the block of point r / 8192, so the 32 blocks cover the array, and the array ends
  holding the product of the argument arrays with the signs.
-/
import proofs.«103961_j83288005804169_2_alg».proof.Proof.Gen.KernelIdeal.Value
import proofs.«103961_j83288005804169_2_alg».proof.Proof.BlockProduct

noncomputable section

namespace Cert.KernelIdeal.RowBlocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block each window is on at grid point `t`: the blocks of `x` and of the output are block `t` down the rows,
    the block of `w` is the one block there is. Decided over the 32 points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of rows of the product is the product of that block of rows: the entry at row `p`, column `q` of what
    point `t` sees — the block of `X` it fetches and the block of `W`, which is all of `W` — is the product of the
    whole arrays at the place where the output's block puts (p, q). -/
theorem entry_of_blocks (X : S262144x128.Idx → EReal) (W : S128x128.Idx → EReal) (t : Fin cfg0.N) (p : Fin 8192) (q : Fin 128) :
    Cert.SignedProduct.entry (fun y => X (((cfg0.win 0).blk t).view.emb y)) (fun y => W (((cfg0.win 1).blk t).view.emb y)) p q
      = Cert.SignedProduct.product X W (((cfg0.win 2).blk t).view.emb (ix2 p q)) := by
  obtain ⟨e00, e01, e10, e11, e20, e21⟩ := block_index t
  show ∑ k : Fin 128, X (((cfg0.win 0).blk t).view.emb (ix2 p k)) * Ideal.sign (W (((cfg0.win 1).blk t).view.emb (ix2 k q)))
    = ∑ k : Fin 128, X (ix2 ((((cfg0.win 2).blk t).view.emb (ix2 p q)) 0) k) * Ideal.sign (W (ix2 k ((((cfg0.win 2).blk t).view.emb (ix2 p q)) 1)))
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ =>
      show win0_0.index t (0 : Fin 2) * 8192 + 1 * p.val = win0_2.index t (0 : Fin 2) * 8192 + 1 * p.val
      omega
    | ⟨1, _⟩ =>
      show win0_0.index t (1 : Fin 2) * 128 + 1 * k.val = k.val
      omega
  have hw : ((cfg0.win 1).blk t).view.emb (ix2 k q) = ix2 k ((((cfg0.win 2).blk t).view.emb (ix2 p q)) 1) := by
    funext a; apply Fin.ext
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  rw [hx, hw]
  rfl

/-- WHAT POINT `t` WRITES BACK is block `t` of the product of the arrays as the region finds them. -/
theorem flushed_eq (c : Dev nD) (t : Fin cfg0.N) :
    (dats m 0 c).flushed 2 t
      = ((cfg0.win 2).blk t).view.read (Elt Ideal) (Cert.SignedProduct.product (V m c main_arg0) (V m c main_arg1)) := by
  rw [Cert.KernelIdeal.Value.flushed2]
  unfold out0_2
  rw [View.canon_unit_zero zero_offsets]
  simp only [View.ld_unit_zero (S := S8192x128) zero_offsets, View.ld_unit_zero (S := S128x128) zero_offsets]
  funext j
  obtain ⟨p, q, rfl⟩ : ∃ (p : Fin 8192) (q : Fin 128), j = ix2 p q := ⟨j 0, j 1, eq_ix2 j⟩
  show k0_pay1 (F := Ideal) (iblk m c 1 t) (iblk m c 0 t) (ix2 p q)
    = Cert.SignedProduct.product (V m c main_arg0) (V m c main_arg1) (((cfg0.win 2).blk t).view.emb (ix2 p q))
  refine (Cert.KernelIdeal.BlockProduct.payload_entry (iblk m c 1 t) (iblk m c 0 t) p q).trans ?_
  exact entry_of_blocks (V m c main_arg0) (V m c main_arg1) t p q

/-- An index of the array is in point `t`'s block iff each coordinate is in the block's range on its axis. -/
theorem mem_block (t : Fin cfg0.N) (i : S262144x128.Idx) :
    i ∈ ((cfg0.win 2).blk t).view.set
      ↔ ∀ a : Fin 2, win0_2.index t a * S8192x128.size a ≤ (i a).val ∧ (i a).val < win0_2.index t a * S8192x128.size a + S8192x128.size a := by
  show i ∈ ((View.whole main_v0).slice (win0_2.rect t)).set ↔ _
  rw [View.set_slice_whole, Rect.mem_set_unit]
  exact Iff.rfl

/-- The blocks cover the array: row r lies in the block of point r / 8192, and every point writes its block back. -/
theorem covered (i : S262144x128.Idx) :
    ∃ t : Fin cfg0.N, (cfg0.win 2).flush t = true ∧ i ∈ ((cfg0.win 2).blk t).view.set := by
  have hi0 : (i 0).val < 262144 := (i 0).isLt
  have hi1 : (i 1).val < 128 := (i 1).isLt
  have hN : grid0.N = 32 := N_0
  have ht : (i 0).val / 8192 < cfg0.N := by show (i 0).val / 8192 < grid0.N; omega
  refine ⟨⟨(i 0).val / 8192, ht⟩, flush0_2 _, ?_⟩
  rw [mem_block]
  obtain ⟨-, -, -, -, e20, e21⟩ := block_index ⟨(i 0).val / 8192, ht⟩
  have e20' : win0_2.index ⟨(i 0).val / 8192, ht⟩ (0 : Fin 2) = (i 0).val / 8192 := e20
  intro a
  match a with
  | ⟨0, _⟩ =>
    show win0_2.index ⟨(i 0).val / 8192, ht⟩ (0 : Fin 2) * 8192 ≤ (i 0).val
      ∧ (i 0).val < win0_2.index ⟨(i 0).val / 8192, ht⟩ (0 : Fin 2) * 8192 + 8192
    omega
  | ⟨1, _⟩ =>
    show win0_2.index ⟨(i 0).val / 8192, ht⟩ (1 : Fin 2) * 128 ≤ (i 1).val
      ∧ (i 1).val < win0_2.index ⟨(i 0).val / 8192, ht⟩ (1 : Fin 2) * 128 + 128
    omega

/-- THE ARRAY after the run: the product of the argument arrays with the signs. -/
theorem final (c : Dev nD) :
    (dats m 0 c).arrAt 2 cfg0.N
      = Cert.SignedProduct.product (m ((c : Thread nD τ).loc main_arg0)) (m ((c : Thread nD τ).loc main_arg1)) :=
  (dats m 0 c).arrAt_eq_of_cover 2 _ (fun t _ => flushed_eq m c t) covered

/-- The kernel's run, read: the output array ends at the product with the signs, the arguments unchanged. -/
theorem run : θ_run defs (onTc (τ := τ) (main (F := Ideal))) ⟨m, fun _ => 0, ρ⟩ fun r => ∀ c : Dev nD,
      r.2.mem ((c : Thread nD τ).loc main_v0)
        = Cert.SignedProduct.product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.RowBlocks

end
-- ==== Proof.ReferenceProduct.lean ====
/-
  The reference computes the product with the signs.

  The reference program first takes the sign of every weight and then contracts the columns of `x` against the rows
  of that matrix. Read at an index (r, c), the contraction is the sum over k of x[r, k] times the sign matrix at (k, c),
  and the sign matrix at (k, c) is sgn (w[k, c]): the entry of the product with the signs.
-/
import proofs.«103961_j83288005804169_2_alg».proof.Proof.Gen.ReferenceIdeal.Read
import proofs.«103961_j83288005804169_2_alg».proof.Proof.SignedProduct

noncomputable section

namespace Cert.ReferenceIdeal.ReferenceProduct

open Cert.ReferenceIdeal Cert.ReferenceIdeal.Read Idealize.ShloMosaic Idealize.ShloMosaic.ValueIdx

/-- The left operand's index at output index `i` and contraction position `k` is row `i 0`, column `k`. -/
theorem left_index (i : S262144x128.Idx) (k : Fin 128) : lidx_main_v1 i k = ix2 (i 0) k :=
  funext fun a => Fin.ext (by match a with | ⟨0, _⟩ => rfl | ⟨1, _⟩ => rfl)

/-- The right operand's index there is row `k`, column `i 1`. -/
theorem right_index (i : S262144x128.Idx) (k : Fin 128) : ridx_main_v1 i k = ix2 k (i 1) :=
  funext fun a => Fin.ext (by match a with | ⟨0, _⟩ => rfl | ⟨1, _⟩ => rfl)

/-- The reference's result, as a function of its two arguments, is the product with the signs. -/
theorem result_eq (x : (⟨S262144x128, .f32⟩ : BufTy).Contents (Elt Ideal)) (w : (⟨S128x128, .f32⟩ : BufTy).Contents (Elt Ideal)) :
    val_main_v1 (F := Ideal) x w = Cert.SignedProduct.product x w := by
  funext i
  rw [val_main_v1_apply]
  show _ = ∑ k : Fin 128, x (ix2 (i 0) k) * Ideal.sign (w (ix2 k (i 1)))
  refine Finset.sum_congr rfl fun k _ => ?_
  rw [val_main_v0_apply, Ideal.hostUnary_sign_def, left_index, right_index]
  rfl

end Cert.ReferenceIdeal.ReferenceProduct

end
-- ==== Proof.lean ====
/-
  A dense layer with sign-quantised weights: out = x · sgn(W), for x of 262144 × 128 and W of 128 × 128.

  The kernel walks the rows of x in 32 blocks of 8192. At each block it forms sgn(W) elementwise — it reads the sign
  bit of each weight to get ±1 and keeps the weight itself where it is zero —, narrows both operands to a shorter
  float format and multiplies the block by sgn(W), accumulating from zero. The reference takes sgn(W) once and
  contracts all of x against it.

  At the ideal values a float is an extended real, narrowing is the identity, and "the sign bit is set" is read as
  "below zero". Then both programs compute, at row r and column c,

      ∑ₖ x[r, k] · sgn (W[k, c]),    sgn = −1 below zero, +1 above zero, 0 at zero,

  with the factors in the same order and the same range of summation: the kernel because a matrix product into a
  zero accumulator is that sum and its chain of comparisons and selections is sgn on every extended real (−∞ and +∞
  included), the reference because its contraction is that sum by definition. A row of the result depends only on
  the same row of x, so the 32 blocks the kernel writes are the 32 blocks of rows of one array, and they cover it.
  No distributive law or cancellation is used, so the finiteness of the inputs is never called on.

  The one rewrite that separates the kernel as printed from its idealization — the sign bit read through the
  float's word, replaced by the comparison with zero — is the rule's own statement at the weights' shape and format.
-/
import proofs.«103961_j83288005804169_2_alg».proof.Defs
import proofs.«103961_j83288005804169_2_alg».proof.Proof.Gen.Kernel
import proofs.«103961_j83288005804169_2_alg».proof.Proof.Gen.Kernel.Skeleton
import proofs.«103961_j83288005804169_2_alg».proof.Proof.Gen.Kernel.Launch
import proofs.«103961_j83288005804169_2_alg».proof.Proof.Gen.Kernel.Points
import proofs.«103961_j83288005804169_2_alg».proof.Proof.Gen.Kernel.Frame
import proofs.«103961_j83288005804169_2_alg».proof.Proof.Gen.KernelIdeal
import proofs.«103961_j83288005804169_2_alg».proof.Proof.Gen.KernelIdeal.Skeleton
import proofs.«103961_j83288005804169_2_alg».proof.Proof.Gen.KernelIdeal.Launch
import proofs.«103961_j83288005804169_2_alg».proof.Proof.Gen.KernelIdeal.Points
import proofs.«103961_j83288005804169_2_alg».proof.Proof.Gen.KernelIdeal.Frame
import proofs.«103961_j83288005804169_2_alg».proof.Proof.Gen.ReferenceIdeal
import proofs.«103961_j83288005804169_2_alg».proof.Proof.Gen.Pre_finite_inputs
import proofs.«103961_j83288005804169_2_alg».proof.Proof.Gen.KernelIdeal.Value
import proofs.«103961_j83288005804169_2_alg».proof.Proof.Gen.ReferenceIdeal.Run
import proofs.«103961_j83288005804169_2_alg».proof.Proof.Gen.ReferenceIdeal.Read
import proofs.«103961_j83288005804169_2_alg».proof.Proof.RowBlocks
import proofs.«103961_j83288005804169_2_alg».proof.Proof.ReferenceProduct
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: ±1 by the sign bit becomes ±1 by the comparison with zero, at the shape and
    format of the weights. -/
theorem preserves : Cert.preserves_Kernel_KernelIdeal :=
  IdealRules.sign_bit.statement Cert.KernelIdeal.S128x128 .f32

/-- From arguments that agree, the kernel's output array ends at the product of x with the signs of W (the 32 blocks
    of rows, put together) and the reference's result is that same product (its contraction read index by index). -/
theorem algebraic : Cert.algebraic_KernelIdeal_ReferenceIdeal := by
  intro m ρ m' ρ' _ hagree
  refine ⟨_, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.ReferenceProduct.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
